-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel

variable [Facts]

def fn {F : FTy → Type} [FloatOps F] (main_arg0 : FVec F S65536x1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  main_v3
-- ==== Kernel.lean ====
abbrev S65536x1024 : Shape := ⟨2, ![65536, 1024]⟩
abbrev S128x128 : Shape := ⟨2, ![128, 128]⟩
abbrev S2048x1024 : Shape := ⟨2, ![2048, 1024]⟩
abbrev S8x128 : Shape := ⟨2, ![8, 128]⟩
abbrev S1x2048x1024 : Shape := ⟨3, ![1, 2048, 1024]⟩
abbrev S1 : Shape := ⟨1, ![1]⟩
abbrev S1x1x1 : Shape := ⟨3, ![1, 1, 1]⟩
abbrev S_ : Shape := ⟨0, ![]⟩

abbrev nBuf : Space → Nat
  | .hbm => 10
  | .vmem => 6
  | .smem => 0
  | _ => 0

abbrev bufTy : (tb : Table) → Fin (tcTables nBuf tb) → BufTy
  | .hbm, ⟨0, _⟩ => ⟨S65536x1024, .f32⟩
  | .hbm, ⟨1, _⟩ => ⟨S128x128, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | .local _ .vmem, ⟨4, _⟩ => ⟨S8x128, .f32⟩
  | .local _ .vmem, ⟨5, _⟩ => ⟨S8x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_cst_2 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S2048x1024_S2048x1024_0_0 : ∀ a, (![0, 0] : Fin 2 → Nat) a + S2048x1024.size a ≤ S2048x1024.size a
  h_S2048x1024 : 0 < S2048x1024.numel
  shapeCasts_S2048x1024_S1x2048x1024 : S2048x1024.ShapeCasts S1x2048x1024
  reduces_S1x2048x1024_S1 : S1x2048x1024.Reduces [1, 2] S1
  shapeCasts_S1_S1x1x1 : S1.ShapeCasts S1x1x1
  inpos_S1x1x1_p0_0_0 : ∀ a, (![0, 0, 0] : Fin 3 → Nat) a < S1x1x1.size a
  iota_S8x128_d0_w32 : S8x128.Iotas .tc 32 [0]
  iota_S8x128_d1_w32 : S8x128.Iotas .tc 32 [1]
  inb_S8x128_S8x128_0_0 : ∀ a, (![0, 0] : Fin 2 → Nat) a + S8x128.size a ≤ S8x128.size a
  h_S8x128 : 0 < S8x128.numel
  reducesTo_S128x128_S_d0_1 : S128x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S65536x1024.size a
  hwx0_0 : ∀ i : grid0.Coords, EltTy.bits .f32 = 32 ∨ (Rect.block (s := S65536x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S65536x1024.size a
  hwx0_1 : ∀ i : grid0.Coords, EltTy.bits .f32 = 32 ∨ (Rect.block (s := S65536x1024) S2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S128x128.size a
  hwx0_2 : ∀ i : grid0.Coords, EltTy.bits .f32 = 32 ∨ (Rect.block (s := S128x128) S8x128.size (cc0_transform_2 i) (hinb0_2 i)).WholeWords (EltTy.packing .f32)

variable [Facts₀]

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S32768x1024 : Shape := ⟨2, ![32768, 1024]⟩
abbrev S_ : Shape := ⟨0, ![]⟩
abbrev S32768 : Shape := ⟨1, ![32768]⟩

abbrev nBuf : Space → Nat
  | .hbm => 16
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S32768x1024, .f32⟩
  | .hbm, ⟨2, _⟩ => ⟨S32768x1024, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S_, .f32⟩
  | .hbm, ⟨7, _⟩ => ⟨S32768, .f32⟩
  | .hbm, ⟨8, _⟩ => ⟨S32768, .f32⟩
  | .hbm, ⟨9, _⟩ => ⟨S_, .f32⟩
  | .hbm, ⟨10, _⟩ => ⟨S32768, .f32⟩
  | .hbm, ⟨11, _⟩ => ⟨S32768, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_cst_3 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  slices_S65536x1024_S32768x1024_0_0 : S65536x1024.Slices ![0, 0] S32768x1024
  slices_S65536x1024_S32768x1024_32768_0 : S65536x1024.Slices ![32768, 0] S32768x1024
  reducesTo_S32768x1024_S32768_d1 : S32768x1024.ReducesTo [1] S32768
  h_S_ : 0 < S_.numel
  bcast_S_S32768 : S_.BroadcastsInDim S32768 (![] : Fin 0 → Fin S32768.rank)
  reducesTo_S32768_S_d0 : S32768.ReducesTo [0] S_

variable [Facts₀]

class Facts : Prop extends Facts₀ where

variable [Facts]
-- ==== Proof.LibSharedFrameTail.lean ====
/-
  A pipeline's frame run when several input windows read one array and the program goes on after the region.

  One region on a static grid, a kernel with no semaphore of its own, host operations before the region and straight
  lines of host operations after it. Several input windows may read one array, so the arrays behind the windows need not
  be distinct; how a shared array is dealt among its windows is the caller's statement (`hsplit`), as for a region with
  nothing after it. The lines after the region may read ONE window's array — an output window `wo` whose array no other
  window reads, held whole at the full share — and may read and write the buffers that bypass the region; they write no
  array. While they run, every other window's share of its array is set aside untouched.

  The conclusion is the usual one read after the lines: every window's array at the contents computed from the proof
  data after all write-backs, every bypassing buffer at what the lines leave from the region's exit.
-/
import Idealize.ShloMosaic.Lib.Pipeline.FrameSuffix

noncomputable section

namespace Cert.SharedLaunchTail

open Idealize.ShloMosaic Idealize.ShloMosaic.Pipeline
open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open Idealize.ShloMosaic.TcCoe Idealize.ShloMosaic.Rounds

variable {nD : Nat} {τ : Topo} {sig : RefSig} {Val : EltTy → Type}

/-! ## The lines after the region, reading one unshared array -/

section Lines

variable {Ix : Type} [DecidableEq Ix] {Name : Type} [DecidableEq Name] {U : Type} [URA U] {Lvl : Type}
variable {Λ₀ : Idealize.SL.Sem.Labels} {P : Type} [Fintype P] [DecidableEq P]
variable (pcs : P → PCfg sig Λ₀ Val) (defs₀ : Defs nD τ sig Val Λ₀) (𝒱₀ : Variants)

local notation "𝕄" => MT nD τ sig Ix Val Name U Lvl
local notation "𝔻" => Pipeline.defs pcs defs₀
local notation "𝕍" => Variants.lift 𝒱₀

variable (sig) in
/-- The device buffers the lines may touch: window `wo`'s array and the buffers that bypass the region. -/
def oneRefs {gr : Nat} {W : Nat} (win : Fin W → WinSpec sig gr) (wo : Fin W) : Finset (DevRef τ sig) :=
  (insert (arrRef win wo) (restRefs sig win)).map ⟨Proc.devRef (sig := sig) .tc, Proc.devRef_injective _⟩

omit [Fintype P] [DecidableEq P] in
/-- An operation's buffers are ones the lines may touch when they are TensorCore references (`h₁`) and none is the array
    of a window whose array is not `wo`'s (`h₂`). -/
theorem sub_oneRefs {gr : Nat} {W : Nat} (win : Fin W → WinSpec sig gr) (wo : Fin W) (op : HloOp τ sig Val)
    (h₁ : op.bufs ⊆ StableHlo.tcRefs τ sig)
    (h₂ : ∀ w, arrRef win w ≠ arrRef win wo → Proc.devRef .tc (arrRef win w) ∉ op.bufs) :
    op.bufs ⊆ oneRefs (τ := τ) sig win wo := by
  classical
  intro b hb
  have hu : b ∈ ucRefs τ sig := sub_ucRefs op h₁ hb
  simp only [oneRefs, ucRefs, StableHlo.tcRefs, restRefs, Finset.mem_map, Finset.mem_filter, Finset.mem_insert,
    Finset.mem_sdiff, Finset.mem_image, Finset.mem_univ, true_and, Function.Embedding.coeFn_mk] at hu ⊢
  obtain ⟨⟨r, rfl⟩, hr⟩ := hu
  refine ⟨r, ?_, rfl⟩
  by_cases h : ∃ w, arrRef win w = r
  · obtain ⟨w, rfl⟩ := h
    by_cases e : arrRef win w = arrRef win wo
    · exact Or.inl e
    · exact absurd hb (h₂ w e)
  · exact Or.inr ⟨hr, h⟩

omit [Fintype P] [DecidableEq P] in
/-- The region's exit contents read at the array of a window no other window shares its array with: that window's. -/
theorem withArrays_one {gr : Nat} {W : Nat} (win : Fin W → WinSpec sig gr) (wo : Fin W)
    (hwo : ∀ w, arrRef win w = arrRef win wo → w = wo)
    (c : Dev nD) (V : Valuation τ sig Val) (A : (w : Fin W) → Buf Val ((win w).arr.view.loc (c.tc : Thread nD τ))) :
    withArrays win c V A (Proc.devRef .tc (arrRef win wo)) = A wo := by
  unfold withArrays
  have h : ∃ w', Proc.devRef .tc (arrRef win w') = Proc.devRef (τ := τ) .tc (arrRef win wo) := ⟨wo, rfl⟩
  rw [dif_pos h]
  suffices ∀ (w' : Fin W) (e : Proc.devRef .tc (arrRef win w') = Proc.devRef (τ := τ) .tc (arrRef win wo)),
      cast (congrArg (fun b' : DevRef τ sig => b'.ty.Contents Val) e) (A w') = A wo from this _ h.choose_spec
  intro w' e
  obtain rfl : w' = wo := hwo w' (Proc.devRef_injective _ e)
  rfl

omit [Fintype P] [DecidableEq P] in
/-- Those buffers held at `Wv`: the one array, and the bypassing buffers. -/
theorem held_oneRefs {gr : Nat} {W : Nat} (win : Fin W → WinSpec sig gr) (wo : Fin W) (c : Dev nD) (Wv : Valuation τ sig Val) :
    (StableHlo.held (c.tc : Thread nD τ) (oneRefs sig win wo) Wv : sProp 𝕄)
      = iprop((((c.tc : Thread nD τ).loc (arrRef win wo)) ↦{fullShare} Wv (Proc.devRef .tc (arrRef win wo)))
          ∗ unscopedRest win c (fun b => Wv (Proc.devRef .tc b))) := by
  classical
  have hnr : arrRef win wo ∉ restRefs sig win := fun h =>
    (Finset.mem_sdiff.mp h).2 (Finset.mem_image.mpr ⟨wo, Finset.mem_univ _, rfl⟩)
  unfold StableHlo.held oneRefs unscopedRest
  rw [bigSep_map, BI.bigSep_insert hnr]
  rfl

omit [Fintype P] [DecidableEq P] in
set_option backward.isDefEq.respectTransparency.types false in
/-- The lines run from the one array at `A wo` and the bypassing buffers at `V` to the same array and the bypassing
    buffers at what the lines compute from the region's exit contents; `R` — the other windows' shares — is carried across. -/
theorem tail_seqs_one [Preorder Lvl] {gr : Nat} {W : Nat} (win : Fin W → WinSpec sig gr) (wo : Fin W)
    (hwo : ∀ w, arrRef win w = arrRef win wo → w = wo)
    (c : Dev nD) (V : Valuation τ sig Val) (A : (w : Fin W) → Buf Val ((win w).arr.view.loc (c.tc : Thread nD τ)))
    (opss : List (List (HloOp τ sig Val)))
    (hsub : ∀ ops ∈ opss, ∀ op ∈ ops, op.bufs ⊆ oneRefs sig win wo)
    (hfresh : ∀ ops ∈ opss, ∀ op ∈ ops, op.fresh = ∅)
    (hkeep : ∀ ops ∈ opss, ∀ op ∈ ops, Proc.devRef .tc (arrRef win wo) ∉ op.writes)
    (R : sProp 𝕄) (Q' : PUnit → sProp 𝕄) :
    iprop((iprop((((c.tc : Thread nD τ).loc (arrRef win wo)) ↦{fullShare} A wo)
              ∗ unscopedRest win c (fun b => StableHlo.after opss.flatten (withArrays win c V A) (Proc.devRef .tc b)) ∗ R) -∗ Q' ⟨⟩)
        ∗ boundary (c.tc : Thread nD τ) ∗ (((c.tc : Thread nD τ).loc (arrRef win wo)) ↦{fullShare} A wo)
        ∗ unscopedRest win c (fun b => V (Proc.devRef .tc b)) ∗ R)
      ⊢ wp frame (wpE 𝔻 𝕍 (c.tc : Thread nD τ) none) Set.univ (chain (opss.map StableHlo.seq)) Q' := by
  classical
  have hW : (StableHlo.held (c.tc : Thread nD τ) (oneRefs sig win wo) (withArrays win c V A) : sProp 𝕄)
      = iprop((((c.tc : Thread nD τ).loc (arrRef win wo)) ↦{fullShare} A wo) ∗ unscopedRest win c (fun b => V (Proc.devRef .tc b))) := by
    rw [held_oneRefs, withArrays_one win wo hwo c V A]
    congr 1
    unfold unscopedRest
    exact bigSep_congr fun b hb => by
      beta_reduce
      rw [withArrays_of_ne win c V A b fun w e => (Finset.mem_sdiff.mp hb).2 (Finset.mem_image.mpr ⟨w, Finset.mem_univ _, e⟩)]
  have hW' : (StableHlo.held (c.tc : Thread nD τ) (oneRefs sig win wo) (StableHlo.after opss.flatten (withArrays win c V A)) : sProp 𝕄)
      = iprop((((c.tc : Thread nD τ).loc (arrRef win wo)) ↦{fullShare} A wo)
          ∗ unscopedRest win c (fun b => StableHlo.after opss.flatten (withArrays win c V A) (Proc.devRef .tc b))) := by
    rw [held_oneRefs]
    congr 1
    rw [StableHlo.after_of_forall_not_mem _ _ fun op hop => ?_, withArrays_one win wo hwo c V A]
    obtain ⟨ops, hops, hop⟩ := List.mem_flatten.mp hop
    exact hkeep ops hops op hop
  rw [← List.append_nil (opss.map StableHlo.seq)]
  iintro ⟨Hk, Hb, Hp, Hz, Hr⟩
  iapply (wp_seqs_then pcs defs₀ 𝒱₀ c (oneRefs sig win wo) [] opss hsub hfresh (withArrays win c V A)) $$ [Hb Hp Hz]
  · rw [hW]
    isplitl [Hb]; · iexact Hb
    isplitl [Hp]; · iexact Hp
    iexact Hz
  iintro Hb
  rw [chain_nil, wp_pure, hW']
  imodintro
  iapply Hk
  icases Hb with ⟨-, Hp, Hz⟩
  isplitl [Hp]; · iexact Hp
  isplitl [Hz]; · iexact Hz
  iexact Hr

end Lines

/-! ## The frame run -/

section Run

variable {Λ₀ : Idealize.SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- The frame run of a region whose input windows may share arrays, continued by the host lines `opss`, which read the
    array of the output window `wo` alone among the arrays (`hsub`), allocate nothing and write no array (`hkeep`). -/
theorem θ_run_frame_shared_around
    (hcell : Function.Injective (cellOf (nD := nD) (τ := τ) cfgs))
    (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ : Dev nD → Valuation τ sig Val) (opss : List (List (HloOp τ sig Val)))
    (wo : Fin (cfg).W) (hwo : ∀ w, arrRef (cfg).spec w = arrRef (cfg).spec wo → w = wo)
    (hfull : ∀ c, (dats p c).share wo = fullShare)
    (hsub : ∀ ops ∈ opss, ∀ op ∈ ops, op.bufs ⊆ oneRefs sig (cfg).spec wo)
    (hfresh : ∀ ops ∈ opss, ∀ op ∈ ops, op.fresh = ∅)
    (hkeep : ∀ ops ∈ opss, ∀ op ∈ ops, Proc.devRef .tc (arrRef (cfg).spec wo) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hsplit : ∀ c, (arrBufs (cfg).spec c (fun b => V₀ c (Proc.devRef .tc b)) : sProp 𝕄) ⊢ (dats p c).arrays ((dats p c).arrAt · 0))
    (hin : ∀ c, ΦA (cfg).spec c ⊢ (dats p c).Φ 0)
    (hout : ∀ c, (dats p c).Φ (Fin.last (cfg).N) ⊢ ΦA (cfg).spec c) :
    θ_run 𝔻 (onTc main) (s₀ m g) (FramePost cfgs dats p (afterTail₀ cfgs dats p V₀ opss)) := by
  classical
  exact Pipeline.θ_run_region_pf_tail (fun q => (cfgs q).toPCfg (Val := Val)) (fun q => (cfgs q).toPCfg_adm) dats () hcell p hw
    (OwnSemFacts.none (cfg).spec) (PreFacts.none _) emb₁ defs₀ 𝒱₀ m g main (fun _ => chain (opss.map StableHlo.seq)) hbody hne harr hstage howed
    (G := fun _ => iprop(emp)) (u₀ := initOf (cells cfgs hcell) (launchToks cfgs hcell))
    (hu₀ := by
      iintro Hu; imodintro
      isplitl [Hu]
      · iapply (show (ownU _ : sProp 𝕄) ⊢ BI.own (emb₁ (initOf (cells cfgs hcell) (launchToks cfgs hcell))) from .rfl); iexact Hu
      iapply (show (BI.emp : sProp 𝕄) ⊢ bigSep Finset.univ (fun _ : Dev nD => (BI.emp : sProp 𝕄)) from by rw [BI.bigSep_emp_const])
      iempintro)
    (V := fun c b => V₀ c (Proc.devRef .tc b)) (hmain := hmain) (hsplit := hsplit) (hpf := fun _ k => k.elim0)
    (X := fun c => iprop(∃ r, prngReg c r)) (Y := fun c => iprop(∃ r, prngReg c r))
    (Z := fun c => unscopedRest (Ix := Unit) (Name := ℕ) (U := UR sig nD τ) (Lvl := ℕ) (cfg).spec c (fun b => V₀ c (Proc.devRef .tc b)))
    (Z' := fun c => unscopedRest (Ix := Unit) (Name := ℕ) (U := UR sig nD τ) (Lvl := ℕ) (cfg).spec c (afterTail₀ cfgs dats p V₀ opss c))
    (hX := fun c => by
      rw [unscopedRestP_none]
      iintro ⟨HU, -, -, -, Hp, -⟩; imodintro
      isplitl [Hp]; · iexists _; iexact Hp
      iexact HU)
    (hin := fun c => (show _ ⊢ ΦA (cfg).spec c by
        unfold ΦA; iintro ⟨Hp, -, Hr⟩
        isplitl [Hr] <;> iassumption).trans (hin c))
    (hout := fun c => (hout c).trans (by
        rw [ownSems0_none]; unfold ΦA
        iintro ⟨Hr, Hp⟩
        isplitl [Hp]; · iexact Hp
        isplitr; · iempintro
        iexact Hr))
    (htail := fun c Q' => by
      have harr_eq : ∀ F : (w : Fin (cfg).W) → Buf Val (((cfg).win w).arr.view.loc (c.tc : Thread nD τ)),
          ((dats p c).arrays F : sProp 𝕄)
            = iprop((((c.tc : Thread nD τ).loc (arrRef (cfg).spec wo)) ↦{fullShare} F wo)
                ∗ bigSep (Finset.univ.erase wo) fun w : Fin (cfg).W =>
                    ((cfg).win w).arr.view.loc (c.tc : Thread nD τ) ↦[((cfg).win w).arr.view.set]{(dats p c).share w} F w) := fun F => by
        unfold Dat.arrays
        rw [BI.bigSep_univ_split wo]
        congr 1
        rw [(harr wo).set_eq_univ, hfull c]
      rw [harr_eq]
      iintro ⟨Hk, Hb, ⟨Hp, Hr⟩, Hz⟩
      iapply (tail_seqs_one (fun q => (cfgs q).toPCfg (Val := Val)) defs₀ 𝒱₀ (cfg).spec wo hwo c (V₀ c)
        (fun w => (dats p c).arrAt w (cfg).N) opss hsub hfresh hkeep _ Q')
      isplitl [Hk]
      · iintro ⟨Hp, Hz, Hr⟩
        iapply Hk
        isplitl [Hp Hr]
        · isplitl [Hp]; · iexact Hp
          iexact Hr
        iexact Hz
      isplitl [Hb]; · iexact Hb
      isplitl [Hp]; · iexact Hp
      isplitl [Hz]; · iexact Hz
      iexact Hr)
    (QY := fun c s => ∀ b ∈ restRefs sig (cfg).spec, s.mem ((c.tc : Thread nD τ).loc b) = afterTail₀ cfgs dats p V₀ opss c b)
    (hY := fun c s' => by
      iintro ⟨-, HU, HSI⟩
      unfold unscopedRest
      imodintro
      iapply (pointsTo_read_all (restRefs sig (cfg).spec) (fun b => (c.tc : Thread nD τ).loc b) (afterTail₀ cfgs dats p V₀ opss c) s')
      isplitl [HU] <;> iassumption)
    (hQ := fun s h c => ⟨(h c).1, (h c).2.2⟩)

end Run

end Cert.SharedLaunchTail

end
-- ==== Proof.KernelFrame.lean ====
/-
  The frame run of the kernel program: sixteen grid points, each reading a 2048-row tile of the first half of the
  argument and the matching tile of the second half — two windows onto ONE array — and writing one 8 x 128 block of
  the partial-sum array; then four scalar host lines.

  The argument array is held by both input windows, so its full share is dealt between them as its two halves.
  After the body at a point the output window's buffer holds the one payload of the body's single store, covering
  the whole block; the input buffers hold their blocks as fetched.
-/
import proofs.«177278_j53712861004461_2_alg».proof.Proof.Gen.Kernel.Launch
import proofs.«177278_j53712861004461_2_alg».proof.Proof.Gen.Kernel.Skeleton
import proofs.«177278_j53712861004461_2_alg».proof.Proof.Gen.Kernel.Points
import proofs.«177278_j53712861004461_2_alg».proof.Proof.LibSharedFrameTail
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its one region -/

/-- The buffers' contents when the region is entered: no host line precedes it, so they are the launch contents. -/
abbrev V0 (c : Dev nD) : Valuation τ sig (Elt F) :=
  StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor

/-- The program is the region followed by the four scalar lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] trivial trivial main_chain

/-- The argument array is the array of windows 0 and 1 only; the partial-sum array is window 2's alone. -/
theorem out_alone : ∀ w, Pipeline.arrRef spec0 w = Pipeline.arrRef spec0 (2 : Fin 3) → w = 2 := by decide

/-- The lines after the region touch the partial-sum array and the scalar buffers, never the argument. -/
theorem sfx_sub : ∀ ops ∈ ([hostOps1] : List (List (HloOp τ sig (Elt F)))), ∀ op ∈ ops,
    op.bufs ⊆ Cert.SharedLaunchTail.oneRefs sig spec0 (2 : Fin 3) := by
  intro ops hops op hop
  simp only [List.mem_cons, List.mem_nil_iff, or_false] at hops
  subst hops
  refine Cert.SharedLaunchTail.sub_oneRefs spec0 (2 : Fin 3) op ((List.forall_iff_forall_mem.mp hostOps1_sub) op hop) ?_
  simp only [hostOps1, List.mem_cons, List.mem_nil_iff, or_false] at hop
  intro w hw
  have hw' : Pipeline.arrRef spec0 w = main_arg0 := by
    revert hw; fin_cases w <;> first | (intro _; rfl) | (intro h; exact absurd rfl h)
  rw [hw']
  rcases hop with rfl | rfl | rfl | rfl | rfl | rfl | rfl | rfl <;>
    simp only [StableHlo.nullary_bufs, StableHlo.binary_bufs, Finset.mem_insert, Finset.mem_singleton, not_or] <;>
    (repeat' apply And.intro) <;> exact StableHlo.devRef_ne_of_ne (by decide)

theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- Each line writes its own scalar result, never the partial-sum array. -/
theorem sfx_keeps : ∀ ops ∈ ([hostOps1] : List (List (HloOp τ sig (Elt F)))), ∀ op ∈ ops,
    Proc.devRef .tc (Pipeline.arrRef spec0 (2 : Fin 3)) ∉ op.writes := by
  intro ops hops op hop
  simp only [List.mem_cons, List.mem_nil_iff, or_false] at hops
  subst hops
  simp only [hostOps1, List.mem_cons, List.mem_nil_iff, or_false] at hop
  rcases hop with rfl | rfl | rfl | rfl | rfl | rfl | rfl | rfl <;>
    simp only [StableHlo.nullary_writes, StableHlo.binary_writes, Finset.mem_singleton] <;>
    exact StableHlo.devRef_ne_of_ne (by decide)

/-- No line before the region: the region finds the argument as launched. -/
theorem V_main_arg0 (c : Dev nD) : V m c main_arg0 = m ((c : Thread nD τ).loc main_arg0) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, for proof data whose array is the entry
    contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output window's buffer -/

abbrev rIn : Rect S2048x1024 := Rect.unit (s := S2048x1024) ![0, 0] S2048x1024.size inb_S2048x1024_S2048x1024_0_0
abbrev rOut : Rect S8x128 := Rect.unit (s := S8x128) ![0, 0] S8x128.size inb_S8x128_S8x128_0_0

/-- The output buffer after the body: its one store, of the payload of the two loaded tiles, over the whole block. -/
def out0_2 (x0 x1 : Vec F S2048x1024 .f32) : Vec F S8x128 .f32 :=
  View.canon [⟨rOut, k0_pay1 (View.ld x0 rIn) (View.ld x1 rIn)⟩]

/-- The store's rectangle is the whole block. -/
theorem cover0_2 (p0 : Vec F S8x128 .f32) (y : S8x128.Idx) :
    ∃ pc ∈ ([⟨rOut, p0⟩] : List (View.Piece (Elt F) S8x128 .f32)), y ∈ pc.1.set :=
  View.cover_of_tiled [⟨rOut, p0⟩] S8x128.size (by rfl) y

/-! ## The body -/

set_option maxHeartbeats 1000000 in
/-- The body on whole staging memrefs, the inputs' at contents `x0`, `x1` and the output's at anything, runs to the
    continuation holding the inputs' as they were and the output's at `out0_2 x0 x1`. -/
theorem sound_kernel (c : Dev nD) (E : Set ℕ) (i : grid0.Coords)
    (arg1 : Memref sig .tc .vmem S2048x1024 .f32) (harg1 : arg1.IsWhole)
    (arg2 : Memref sig .tc .vmem S2048x1024 .f32) (harg2 : arg2.IsWhole)
    (arg3 : Memref sig .tc .vmem S8x128 .f32) (harg3 : arg3.IsWhole)
    (x0 x1 : Vec F S2048x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- The arrays as the region finds them; after the body each input buffer at its block, the output buffer at
    `out0_2` of the two input blocks; the argument's full share dealt as its two halves to windows 0 and 1. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input buffers hold their blocks, so `sound_kernel` applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## Dealing the argument array between its two windows -/

theorem share_0 (c : Dev nD) : (dats m 0 c).share 0 = fullShare.left := rfl
theorem share_1 (c : Dev nD) : (dats m 0 c).share 1 = fullShare.right := rfl
theorem share_2 (c : Dev nD) : (dats m 0 c).share 2 = fullShare := rfl

/-- The two distinct buffers behind the three windows, whole at the full share, give the three windows' arrays: the
    argument's full share is the join of its halves. -/
theorem hsplit (c : Dev nD) :
    (Pipeline.arrBufs spec0 c (V m c) : sProp 𝕄) ⊢ (dats m 0 c).arrays ((dats m 0 c).arrAt · 0) := by
  classical
  have h1 : (Pipeline.arrBufs spec0 c (V m c) : sProp 𝕄)
      = iprop((((c.tc : Thread nD τ).loc main_arg0) ↦{fullShare} V m c main_arg0) ∗ (((c.tc : Thread nD τ).loc main_v0) ↦{fullShare} V m c main_v0)) := by
    unfold Pipeline.arrBufs
    rw [show (Finset.univ.image (Pipeline.arrRef spec0)) = {main_arg0, main_v0} from by decide,
      bigSep_insert (by decide), bigSep_singleton]
    rfl
  rw [h1]
  unfold Dat.arrays
  rw [bigSep_W0, share_0, share_1, share_2, (arr_whole0 0).set_eq_univ, (arr_whole0 2).set_eq_univ]
  have hs : ((((c.tc : Thread nD τ).loc main_arg0) ↦{fullShare} V m c main_arg0) : sProp 𝕄)
      ⊢ iprop((((c.tc : Thread nD τ).loc main_arg0) ↦{fullShare.left} V m c main_arg0)
          ∗ (((c.tc : Thread nD τ).loc main_arg0) ↦{fullShare.right} V m c main_arg0)) :=
    (pointsTo_share (PosShare.mem_left_op_right fullShare)).1
  iintro ⟨Ha, Hv⟩
  ihave Hs := hs $$ Ha
  icases Hs with ⟨Hl, Hr⟩
  isplitl [Hl]; · iexact Hl
  isplitl [Hr]; · iexact Hr
  iexact Hv

/-! ## The run -/

set_option backward.isDefEq.respectTransparency.types false in
/-- Every weakly fair execution terminates; every final state has each window's array at what the proof data computes
    and every scalar buffer at what the four lines leave. -/
theorem run_main : θ_run defs (onTc (τ := τ) (main (F := F))) (s₀ m ρ)
    (Pipeline.FramePost cfgs (dats m) 0 (Pipeline.afterTail₀ cfgs (dats m) 0 (V0 m) [hostOps1])) :=
  Cert.SharedLaunchTail.θ_run_frame_shared_around cfgs (dats m) (0 : Fin 1) defs₀ Variants.none
    cellOf_inj winFacts₀0 block_pos0 arr_whole0 stage_whole0 m ρ main
    (hbody := fun c => (body_obligation m c).loose) (howed := fun _ _ => rfl)
    (V₀ := V0 m) (opss := [hostOps1]) (wo := (2 : Fin 3)) (hwo := out_alone) (hfull := fun c => share_2 m c)
    (hsub := sfx_sub) (hfresh := sfx_fresh) (hkeep := sfx_keeps)
    (hmain := hmain m Variants.none) (hsplit := hsplit m) (hin := fun _ => .rfl) (hout := fun _ => .rfl)

/-- The argument array ends as launched: it is an input window's array, never written back. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans (V_main_arg0 m c))) (run_main m ρ)

end Cert.Kernel.Frame

end
-- ==== Proof.KernelIdealFrame.lean ====
/-
  The frame run of the kernel program: sixteen grid points, each reading a 2048-row tile of the first half of the
  argument and the matching tile of the second half — two windows onto ONE array — and writing one 8 x 128 block of
  the partial-sum array; then four scalar host lines.

  The argument array is held by both input windows, so its full share is dealt between them as its two halves.
  After the body at a point the output window's buffer holds the one payload of the body's single store, covering
  the whole block; the input buffers hold their blocks as fetched.
-/
import proofs.«177278_j53712861004461_2_alg».proof.Proof.Gen.KernelIdeal.Launch
import proofs.«177278_j53712861004461_2_alg».proof.Proof.Gen.KernelIdeal.Skeleton
import proofs.«177278_j53712861004461_2_alg».proof.Proof.Gen.KernelIdeal.Points
import proofs.«177278_j53712861004461_2_alg».proof.Proof.LibSharedFrameTail
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its one region -/

/-- The buffers' contents when the region is entered: no host line precedes it, so they are the launch contents. -/
abbrev V0 (c : Dev nD) : Valuation τ sig (Elt F) :=
  StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor

/-- The program is the region followed by the four scalar lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] trivial trivial main_chain

/-- The argument array is the array of windows 0 and 1 only; the partial-sum array is window 2's alone. -/
theorem out_alone : ∀ w, Pipeline.arrRef spec0 w = Pipeline.arrRef spec0 (2 : Fin 3) → w = 2 := by decide

/-- The lines after the region touch the partial-sum array and the scalar buffers, never the argument. -/
theorem sfx_sub : ∀ ops ∈ ([hostOps1] : List (List (HloOp τ sig (Elt F)))), ∀ op ∈ ops,
    op.bufs ⊆ Cert.SharedLaunchTail.oneRefs sig spec0 (2 : Fin 3) := by
  intro ops hops op hop
  simp only [List.mem_cons, List.mem_nil_iff, or_false] at hops
  subst hops
  refine Cert.SharedLaunchTail.sub_oneRefs spec0 (2 : Fin 3) op ((List.forall_iff_forall_mem.mp hostOps1_sub) op hop) ?_
  simp only [hostOps1, List.mem_cons, List.mem_nil_iff, or_false] at hop
  intro w hw
  have hw' : Pipeline.arrRef spec0 w = main_arg0 := by
    revert hw; fin_cases w <;> first | (intro _; rfl) | (intro h; exact absurd rfl h)
  rw [hw']
  rcases hop with rfl | rfl | rfl | rfl | rfl | rfl | rfl | rfl <;>
    simp only [StableHlo.nullary_bufs, StableHlo.binary_bufs, Finset.mem_insert, Finset.mem_singleton, not_or] <;>
    (repeat' apply And.intro) <;> exact StableHlo.devRef_ne_of_ne (by decide)

theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- Each line writes its own scalar result, never the partial-sum array. -/
theorem sfx_keeps : ∀ ops ∈ ([hostOps1] : List (List (HloOp τ sig (Elt F)))), ∀ op ∈ ops,
    Proc.devRef .tc (Pipeline.arrRef spec0 (2 : Fin 3)) ∉ op.writes := by
  intro ops hops op hop
  simp only [List.mem_cons, List.mem_nil_iff, or_false] at hops
  subst hops
  simp only [hostOps1, List.mem_cons, List.mem_nil_iff, or_false] at hop
  rcases hop with rfl | rfl | rfl | rfl | rfl | rfl | rfl | rfl <;>
    simp only [StableHlo.nullary_writes, StableHlo.binary_writes, Finset.mem_singleton] <;>
    exact StableHlo.devRef_ne_of_ne (by decide)

/-- No line before the region: the region finds the argument as launched. -/
theorem V_main_arg0 (c : Dev nD) : V m c main_arg0 = m ((c : Thread nD τ).loc main_arg0) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, for proof data whose array is the entry
    contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output window's buffer -/

abbrev rIn : Rect S2048x1024 := Rect.unit (s := S2048x1024) ![0, 0] S2048x1024.size inb_S2048x1024_S2048x1024_0_0
abbrev rOut : Rect S8x128 := Rect.unit (s := S8x128) ![0, 0] S8x128.size inb_S8x128_S8x128_0_0

/-- The output buffer after the body: its one store, of the payload of the two loaded tiles, over the whole block. -/
def out0_2 (x0 x1 : Vec F S2048x1024 .f32) : Vec F S8x128 .f32 :=
  View.canon [⟨rOut, k0_pay1 (View.ld x0 rIn) (View.ld x1 rIn)⟩]

/-- The store's rectangle is the whole block. -/
theorem cover0_2 (p0 : Vec F S8x128 .f32) (y : S8x128.Idx) :
    ∃ pc ∈ ([⟨rOut, p0⟩] : List (View.Piece (Elt F) S8x128 .f32)), y ∈ pc.1.set :=
  View.cover_of_tiled [⟨rOut, p0⟩] S8x128.size (by rfl) y

/-! ## The body -/

set_option maxHeartbeats 1000000 in
/-- The body on whole staging memrefs, the inputs' at contents `x0`, `x1` and the output's at anything, runs to the
    continuation holding the inputs' as they were and the output's at `out0_2 x0 x1`. -/
theorem sound_kernel (c : Dev nD) (E : Set ℕ) (i : grid0.Coords)
    (arg1 : Memref sig .tc .vmem S2048x1024 .f32) (harg1 : arg1.IsWhole)
    (arg2 : Memref sig .tc .vmem S2048x1024 .f32) (harg2 : arg2.IsWhole)
    (arg3 : Memref sig .tc .vmem S8x128 .f32) (harg3 : arg3.IsWhole)
    (x0 x1 : Vec F S2048x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- The arrays as the region finds them; after the body each input buffer at its block, the output buffer at
    `out0_2` of the two input blocks; the argument's full share dealt as its two halves to windows 0 and 1. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input buffers hold their blocks, so `sound_kernel` applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## Dealing the argument array between its two windows -/

theorem share_0 (c : Dev nD) : (dats m 0 c).share 0 = fullShare.left := rfl
theorem share_1 (c : Dev nD) : (dats m 0 c).share 1 = fullShare.right := rfl
theorem share_2 (c : Dev nD) : (dats m 0 c).share 2 = fullShare := rfl

/-- The two distinct buffers behind the three windows, whole at the full share, give the three windows' arrays: the
    argument's full share is the join of its halves. -/
theorem hsplit (c : Dev nD) :
    (Pipeline.arrBufs spec0 c (V m c) : sProp 𝕄) ⊢ (dats m 0 c).arrays ((dats m 0 c).arrAt · 0) := by
  classical
  have h1 : (Pipeline.arrBufs spec0 c (V m c) : sProp 𝕄)
      = iprop((((c.tc : Thread nD τ).loc main_arg0) ↦{fullShare} V m c main_arg0) ∗ (((c.tc : Thread nD τ).loc main_v0) ↦{fullShare} V m c main_v0)) := by
    unfold Pipeline.arrBufs
    rw [show (Finset.univ.image (Pipeline.arrRef spec0)) = {main_arg0, main_v0} from by decide,
      bigSep_insert (by decide), bigSep_singleton]
    rfl
  rw [h1]
  unfold Dat.arrays
  rw [bigSep_W0, share_0, share_1, share_2, (arr_whole0 0).set_eq_univ, (arr_whole0 2).set_eq_univ]
  have hs : ((((c.tc : Thread nD τ).loc main_arg0) ↦{fullShare} V m c main_arg0) : sProp 𝕄)
      ⊢ iprop((((c.tc : Thread nD τ).loc main_arg0) ↦{fullShare.left} V m c main_arg0)
          ∗ (((c.tc : Thread nD τ).loc main_arg0) ↦{fullShare.right} V m c main_arg0)) :=
    (pointsTo_share (PosShare.mem_left_op_right fullShare)).1
  iintro ⟨Ha, Hv⟩
  ihave Hs := hs $$ Ha
  icases Hs with ⟨Hl, Hr⟩
  isplitl [Hl]; · iexact Hl
  isplitl [Hr]; · iexact Hr
  iexact Hv

/-! ## The run -/

set_option backward.isDefEq.respectTransparency.types false in
/-- Every weakly fair execution terminates; every final state has each window's array at what the proof data computes
    and every scalar buffer at what the four lines leave. -/
theorem run_main : θ_run defs (onTc (τ := τ) (main (F := F))) (s₀ m ρ)
    (Pipeline.FramePost cfgs (dats m) 0 (Pipeline.afterTail₀ cfgs (dats m) 0 (V0 m) [hostOps1])) :=
  Cert.SharedLaunchTail.θ_run_frame_shared_around cfgs (dats m) (0 : Fin 1) defs₀ Variants.none
    cellOf_inj winFacts₀0 block_pos0 arr_whole0 stage_whole0 m ρ main
    (hbody := fun c => (body_obligation m c).loose) (howed := fun _ _ => rfl)
    (V₀ := V0 m) (opss := [hostOps1]) (wo := (2 : Fin 3)) (hwo := out_alone) (hfull := fun c => share_2 m c)
    (hsub := sfx_sub) (hfresh := sfx_fresh) (hkeep := sfx_keeps)
    (hmain := hmain m Variants.none) (hsplit := hsplit m) (hin := fun _ => .rfl) (hout := fun _ => .rfl)

/-- The argument array ends as launched: it is an input window's array, never written back. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans (V_main_arg0 m c))) (run_main m ρ)

end Cert.KernelIdeal.Frame

end
-- ==== Proof.KernelPayload.lean ====
/-
  The body's one stored value, read at an index of the 8 x 128 block at the ideal values: the sum over the
  2048 x 1024 tile of the products of the two loaded tiles at entry (0, 0), and zero everywhere else.
-/
import proofs.«177278_j53712861004461_2_alg».proof.Proof.Gen.KernelIdeal.Skeleton
import Idealize.ShloMosaic.Lib.Pipeline.Value
import Idealize.ShloMosaic.Lib.ValueIdx
import Idealize.ShloMosaic.Lib.Affine
import Idealize.ShloMosaic.PureOps.Ideal.Laws

set_option maxRecDepth 16384

noncomputable section

open scoped BigOperators

namespace Cert.KernelIdeal.Partial

open Cert.KernelIdeal Cert.KernelIdeal.Gen
open Idealize.ShloMosaic Idealize.ShloMosaic.ValueIdx

/-- The mask "row 0 and column 0" of the block, as a word: it is one exactly at (0, 0). -/
theorem mask_iff (a b : Nat) (ha : a < 8) (hb : b < 128) :
    IntOp.andi (IntOp.cmpi .eq (BitVec.ofNat 32 a) 0#32) (IntOp.cmpi .eq (BitVec.ofNat 32 b) 0#32) = 1#1 ↔ a = 0 ∧ b = 0 := by
  rw [IntOp.andi_eq_one, IntOp.cmpi_eq, IntOp.cmpi_eq]
  constructor
  · rintro ⟨h1, h2⟩
    have e1 := congrArg BitVec.toNat h1
    have e2 := congrArg BitVec.toNat h2
    simp only [BitVec.toNat_ofNat] at e1 e2
    constructor <;> omega
  · rintro ⟨rfl, rfl⟩
    exact ⟨rfl, rfl⟩

/-- The sum over the tile viewed with a leading unit axis is the sum over the tile. -/
theorem sum_cast (v : S2048x1024.Idx → EReal) :
    ∑ i : S1x2048x1024.Idx, shapeCast S1x2048x1024 v shapeCasts_S2048x1024_S1x2048x1024 i = ∑ j : S2048x1024.Idx, v j :=
  Equiv.sum_comp (Shape.reshapeEquiv shapeCasts_S2048x1024_S1x2048x1024) v

/-- The reduction over both tile axes into one element is the sum over every index of its operand. -/
theorem red_total (w : FVec Ideal S1x2048x1024 .f32) (j : S1.Idx) :
    multiReduction (F := Ideal) .add [1, 2] S1 w 0x00000000#32 reduces_S1x2048x1024_S1 (.inl rfl) rfl j = ∑ i : S1x2048x1024.Idx, w i :=
  Ideal.multiReduction_add_total w _ reduces_S1x2048x1024_S1 (fun b => by fin_cases b; rfl) _ _ j

/-- Extracting the one entry of a one-element vector viewed 1 x 1 x 1 reads that element. -/
theorem extract_cast (w : S1.Idx → EReal) :
    extractAt ![0, 0, 0] (shapeCast S1x1x1 w shapeCasts_S1_S1x1x1) inpos_S1x1x1_p0_0_0
      = w (Shape.reshapeEquiv shapeCasts_S1_S1x1x1 (fun a => ⟨![0, 0, 0] a, inpos_S1x1x1_p0_0_0 a⟩)) := rfl

/-- The scalar the body broadcasts: the sum of the products over the tile. -/
theorem tile_sum (x0 x1 : Vec Ideal S2048x1024 .f32) :
    extractAt ![0, 0, 0] (shapeCast S1x1x1 (multiReduction (F := Ideal) .add [1, 2] S1
        (shapeCast S1x2048x1024 (mulf x0 x1) shapeCasts_S2048x1024_S1x2048x1024) 0x00000000#32 reduces_S1x2048x1024_S1 (.inl rfl) rfl)
        shapeCasts_S1_S1x1x1) inpos_S1x1x1_p0_0_0
      = ∑ j : S2048x1024.Idx, x0 j * x1 j := by
  rw [extract_cast, red_total, sum_cast]
  rfl

/-- The stored value at an index of the block: the tile sum is named first, so that what remains is the mask alone. -/
theorem pay_apply (x0 x1 : Vec Ideal S2048x1024 .f32) (y : S8x128.Idx) :
    k0_pay1 (F := Ideal) x0 x1 y = if (y 0).val = 0 ∧ (y 1).val = 0 then ∑ j : S2048x1024.Idx, x0 j * x1 j else 0 := by
  have h0 : (y 0).val < 8 := (y 0).isLt
  have h1 : (y 1).val < 128 := (y 1).isLt
  unfold k0_pay1
  rw [tile_sum]
  generalize (∑ j : S2048x1024.Idx, x0 j * x1 j) = T
  show Scalar.select (IntOp.andi (IntOp.cmpi .eq (iota .tc S8x128 32 [0] iota_S8x128_d0_w32 y) 0#32)
        (IntOp.cmpi .eq (iota .tc S8x128 32 [1] iota_S8x128_d1_w32 y) 0#32)) T (Ideal.ofBits .f32 0x00000000#32) = _
  rw [iota_single_apply, iota_single_apply, Ideal.ofBits_zero_f32]
  unfold Scalar.select
  exact if_congr (mask_iff _ _ h0 h1) rfl rfl

end Cert.KernelIdeal.Partial

end
-- ==== Proof.KernelSpec.lean ====
/-
  What the kernel program computes, as functions of the argument array: the sum of products over each pair of
  2048-row tiles, the 128 x 128 array holding tile t's sum at (8 t, 0) and zero elsewhere, and the scalar lines that
  follow (sum, divide by 32768, add one, halve).
-/
import proofs.«177278_j53712861004461_2_alg».proof.Proof.Gen.KernelIdeal
import Idealize.ShloMosaic.Lib.ValueIdx

noncomputable section

open scoped BigOperators

namespace Cert.KernelIdeal.Partial

open Cert.KernelIdeal Cert.KernelIdeal.Gen
open Idealize.ShloMosaic Idealize.ShloMosaic.ValueIdx

/-! ## The specification -/

/-- Row r of tile t in the first half of the argument, at column k. -/
def rowA (t : Fin 16) (j : S2048x1024.Idx) : S65536x1024.Idx :=
  ix2 (n0 := 65536) (n1 := 1024) ⟨t.val * 2048 + (j 0).val, by have := t.isLt; have := idx2_lt0 j; omega⟩ ⟨(j 1).val, idx2_lt1 j⟩

/-- The matching row of the second half: sixteen tiles further on. -/
def rowB (t : Fin 16) (j : S2048x1024.Idx) : S65536x1024.Idx :=
  ix2 (n0 := 65536) (n1 := 1024) ⟨(t.val + 16) * 2048 + (j 0).val, by have := t.isLt; have := idx2_lt0 j; omega⟩ ⟨(j 1).val, idx2_lt1 j⟩

/-- Tile t's sum of products. -/
def tileDot (x : S65536x1024.Idx → EReal) (t : Fin 16) : EReal :=
  ∑ j : S2048x1024.Idx, x (rowA t j) * x (rowB t j)

/-- The partial-sum array after the region. -/
def G (x : S65536x1024.Idx → EReal) : S128x128.Idx → EReal := fun i =>
  if (i 0).val % 8 = 0 ∧ (i 1).val = 0 then tileDot x ⟨(i 0).val / 8, by have := idx2_lt0 i; omega⟩ else 0

/-- The four scalar lines after the region, of the partial-sum array. -/
def epilogue (P : S128x128.Idx → EReal) : S_.Idx → EReal :=
  Host.divf (F := Ideal) (addf (Host.divf (Host.reduceAdd P (constant (F := Ideal) S_ .f32 0x00000000#32) reducesTo_S128x128_S_d0_1 h_S_)
    (constant S_ .f32 0x47000000#32)) (constant S_ .f32 0x3F800000#32)) (constant S_ .f32 0x40000000#32)

end Cert.KernelIdeal.Partial

end
-- ==== Proof.KernelValue.lean ====
/-
  The kernel program's result as a function of the argument.

  Point t of the grid reads rows 2048 t .. 2048 t + 2047 of the argument and rows 2048 (t + 16) .. of it, and writes the
  8 x 128 block at rows 8 t .. 8 t + 7 of the partial-sum array: the tile's sum of products at the block's corner, zero
  elsewhere. The sixteen blocks tile the 128 x 128 array, so after the region that array holds, at (i, k), the tile sum
  of tile i / 8 when i is a multiple of 8 and k is 0, and zero otherwise. The four host lines then sum it, divide by
  32768, add one and halve.
-/
import proofs.«177278_j53712861004461_2_alg».proof.Proof.KernelIdealFrame
import proofs.«177278_j53712861004461_2_alg».proof.Proof.KernelPayload
import proofs.«177278_j53712861004461_2_alg».proof.Proof.KernelSpec
import Idealize.ShloMosaic.Lib.Pipeline.Value
import Idealize.ShloMosaic.Lib.StableHlo.Run

set_option maxRecDepth 16384

noncomputable section

open scoped BigOperators

namespace Cert.KernelIdeal.Partial

open Cert.KernelIdeal Cert.KernelIdeal.Gen Cert.KernelIdeal.Frame
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-! ## What each point writes back -/

theorem hz2 : (![0, 0] : Fin 2 → Nat) = fun _ => 0 := funext fun a => by fin_cases a <;> rfl

/-- The three index maps over the grid: tile t, tile t + 16, block t, each in column block 0. -/
theorem idx_facts : ∀ t : Fin cfg0.N,
    win0_0.index t (0 : Fin 2) = t.val ∧ win0_0.index t (1 : Fin 2) = 0
    ∧ win0_1.index t (0 : Fin 2) = t.val + 16 ∧ win0_1.index t (1 : Fin 2) = 0
    ∧ win0_2.index t (0 : Fin 2) = t.val ∧ win0_2.index t (1 : Fin 2) = 0 :=
  (by decide +kernel : ∀ t : Fin grid0.N, _)

/-- Point t writes back block t of `G` of the argument. -/
theorem flushed_eq (c : Dev nD) (t : Fin cfg0.N) :
    (dats m 0 c).flushed 2 t = ((cfg0.win 2).blk t).view.read (Elt Ideal) (G (V m c main_arg0)) := by
  show (cfg0.win 2).cut (grid0.coords t) ((dats m 0 c).after 2 t) = _
  rw [after0_2]
  unfold out0_2
  rw [View.canon_unit_zero hz2]
  simp only [View.ld_unit_zero (S := S2048x1024) hz2]
  obtain ⟨e0, e1, e2, e3, e4, e5⟩ := idx_facts t
  have ht : t.val < 16 := lt_of_lt_of_eq t.isLt N_0
  funext y
  refine (pay_apply _ _ y).trans ?_
  have hy0 : (y 0).val < 8 := (y 0).isLt
  have hy1 : (y 1).val < 128 := (y 1).isLt
  have hemb0 : ((((cfg0.win 2).blk t).view.emb y) 0).val = t.val * 8 + (y 0).val := by
    show win0_2.index t (0 : Fin 2) * 8 + 1 * (y 0).val = _
    omega
  have hemb1 : ((((cfg0.win 2).blk t).view.emb y) 1).val = (y 1).val := by
    show win0_2.index t (1 : Fin 2) * 128 + 1 * (y 1).val = _
    omega
  show _ = G (V m c main_arg0) (((cfg0.win 2).blk t).view.emb y)
  unfold G
  refine if_congr ?_ ?_ rfl
  · rw [hemb0, hemb1]
    constructor
    · rintro ⟨a, b⟩; exact ⟨by omega, b⟩
    · rintro ⟨a, b⟩; exact ⟨by omega, b⟩
  · unfold tileDot
    refine Finset.sum_congr rfl fun j _ => ?_
    have hj0 : (j 0).val < 2048 := (j 0).isLt
    have hj1 : (j 1).val < 1024 := (j 1).isLt
    congr 1
    · show V m c main_arg0 (((cfg0.win 0).blk t).view.emb j) = V m c main_arg0 (rowA _ j)
      refine congrArg _ (funext fun a => Fin.ext ?_)
      match a with
      | ⟨0, _⟩ =>
        show win0_0.index t (0 : Fin 2) * 2048 + 1 * (j 0).val = ((((cfg0.win 2).blk t).view.emb y) 0).val / 8 * 2048 + (j 0).val
        rw [hemb0]; omega
      | ⟨1, _⟩ =>
        show win0_0.index t (1 : Fin 2) * 1024 + 1 * (j 1).val = (j 1).val
        omega
    · show V m c main_arg0 (((cfg0.win 1).blk t).view.emb j) = V m c main_arg0 (rowB _ j)
      refine congrArg _ (funext fun a => Fin.ext ?_)
      match a with
      | ⟨0, _⟩ =>
        show win0_1.index t (0 : Fin 2) * 2048 + 1 * (j 0).val = (((((cfg0.win 2).blk t).view.emb y) 0).val / 8 + 16) * 2048 + (j 0).val
        rw [hemb0]; omega
      | ⟨1, _⟩ =>
        show win0_1.index t (1 : Fin 2) * 1024 + 1 * (j 1).val = (j 1).val
        omega

/-! ## The blocks tile the array -/

/-- An index of the array is in point t's block iff each coordinate is in the block's range on its axis. -/
theorem mem_blk (t : Fin cfg0.N) (i : S128x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v0).slice (win0_2.rect t)).set ↔ _
  rw [View.set_slice_whole, Rect.mem_set_unit]
  exact Iff.rfl

/-- Row i of the array lies in the block of point i / 8. -/
theorem cover (i : S128x128.Idx) : ∃ t : Fin cfg0.N, (cfg0.win 2).flush t = true ∧ i ∈ ((cfg0.win 2).blk t).view.set := by
  have hi0 : (i 0).val < 128 := (i 0).isLt
  have hi1 : (i 1).val < 128 := (i 1).isLt
  have hN : (i 0).val / 8 < cfg0.N := by rw [show cfg0.N = 16 from N_0]; omega
  refine ⟨⟨(i 0).val / 8, hN⟩, flush0_2 _, ?_⟩
  rw [mem_blk]
  obtain ⟨e0, e1, e2, e3, e4, e5⟩ := idx_facts ⟨(i 0).val / 8, hN⟩
  intro a
  match a with
  | ⟨0, _⟩ =>
    show win0_2.index ⟨(i 0).val / 8, hN⟩ (0 : Fin 2) * 8 ≤ (i 0).val ∧ (i 0).val < win0_2.index ⟨(i 0).val / 8, hN⟩ (0 : Fin 2) * 8 + 8
    rw [e4]; show (i 0).val / 8 * 8 ≤ (i 0).val ∧ (i 0).val < (i 0).val / 8 * 8 + 8; omega
  | ⟨1, _⟩ =>
    show win0_2.index ⟨(i 0).val / 8, hN⟩ (1 : Fin 2) * 128 ≤ (i 1).val ∧ (i 1).val < win0_2.index ⟨(i 0).val / 8, hN⟩ (1 : Fin 2) * 128 + 128
    rw [e5]; omega

/-- The partial-sum array after the region is `G` of the argument. -/
theorem final (c : Dev nD) : (dats m 0 c).arrAt 2 cfg0.N = G (V m c main_arg0) :=
  (dats m 0 c).arrAt_eq_of_cover 2 (G (V m c main_arg0)) (fun t _ => flushed_eq m c t) cover

/-! ## The host lines after the region -/

/-- The result buffer after the four lines: the epilogue of the partial-sum array as the region left it. -/
theorem tail_eq (c : Dev nD) :
    Pipeline.afterTail₀ cfgs (dats m) 0 (V0 m) [hostOps1] c main_v4 = epilogue ((dats m 0 c).arrAt 2 cfg0.N) := by
  unfold Pipeline.afterTail₀
  show StableHlo.after hostOps1 _ (Proc.devRef .tc main_v4) = _
  after_results
  rw [Cert.SharedLaunchTail.withArrays_one spec0 (2 : Fin 3) out_alone c (V0 m c) _]
  rfl

/-! ## The run, read -/

/-- Every weakly fair execution terminates with the result at the epilogue of `G` of the argument, the argument unchanged. -/
theorem run : θ_run defs (onTc (τ := τ) (main (F := Ideal))) ⟨m, fun _ => 0, ρ⟩ fun r => ∀ c : Dev nD,
      r.2.mem ((c.tc : Thread nD τ).loc main_v4) = epilogue (G (m ((c.tc : Thread nD τ).loc main_arg0)))
      ∧ r.2.mem ((c.tc : Thread nD τ).loc main_arg0) = m ((c.tc : Thread nD τ).loc main_arg0) :=
  (θ_run defs _ _).mono (fun r h c =>
      ⟨((h c).2 main_v4 (Pipeline.mem_restRefs_of main_v4 (by decide) (by decide))).trans
          ((tail_eq m c).trans (by rw [final m c]; rfl)),
        ((h c).1 0).trans (((dats m 0 c).arrAt_in 0 rfl _).trans (V_main_arg0 m c))⟩)
    (run_main m ρ)

end Cert.KernelIdeal.Partial

end
-- ==== Proof.MeanAlgebra.lean ====
/-
  The arithmetic that joins the two programs.

  Write s q for the dot product of row q of the first half of the argument with row q of the second half, q below
  32768. One program sums s over sixteen tiles of 2048 rows, divides the total by 32768, adds one and halves; the other
  halves s q + 1 row by row, sums, and divides by 32768. Over the reals both are (sum of s) / 65536 + 1 / 2: the first
  by regrouping the rows into tiles, the second by distributing the halving and the division over the sum. On the
  extended reals the same holds where every term is a real, which is where finiteness of the argument is used.
-/
import Idealize.ShloMosaic.PureOps.Ideal.Laws

noncomputable section

open scoped BigOperators

namespace Cert.MeanAlgebra

open Idealize.ShloMosaic

/-! ## The three float words the programs spell -/

/-- The word of 32768.0 denotes the real 32768. -/
theorem ofBits_32768 : Ideal.ofBits .f32 0x47000000#32 = ((32768 : ℝ) : EReal) := by
  simp [Ideal.ofBits, Ideal.ieee, -EReal.coe_mul]; norm_num

/-- The word of 1.0 denotes the real 1. -/
theorem ofBits_one : Ideal.ofBits .f32 0x3F800000#32 = ((1 : ℝ) : EReal) := by
  simp [Ideal.ofBits, Ideal.ieee, -EReal.coe_mul]; norm_num

/-- The word of 2.0 denotes the real 2. -/
theorem ofBits_two : Ideal.ofBits .f32 0x40000000#32 = ((2 : ℝ) : EReal) := by
  simp [Ideal.ofBits, Ideal.ieee, -EReal.coe_mul]; norm_num

/-! ## Real sums inside the extended reals -/

/-- The inclusion of the reals commutes with finite sums. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-! ## The scalar steps on a real operand -/

/-- Total, divided by 32768, plus one, halved. -/
theorem tile_epilogue (S : ℝ) :
    Ideal.div (Ideal.div (0 + (S : EReal)) ((32768 : ℝ) : EReal) + ((1 : ℝ) : EReal)) ((2 : ℝ) : EReal)
      = (((S / 32768 + 1) / 2 : ℝ) : EReal) := by
  rw [Ideal.div_coe (by norm_num), Ideal.div_coe (by norm_num), zero_add, ← EReal.coe_mul, ← EReal.coe_add, ← EReal.coe_mul]
  congr 1; ring

/-- One row: the dot product plus one, halved. -/
theorem row_step (s : ℝ) :
    Ideal.div ((0 + (s : EReal)) + ((1 : ℝ) : EReal)) ((2 : ℝ) : EReal) = (((s + 1) / 2 : ℝ) : EReal) := by
  rw [Ideal.div_coe (by norm_num), zero_add, ← EReal.coe_add, ← EReal.coe_mul]
  congr 1; ring

/-- The mean's last step: a total divided by 32768. -/
theorem mean_step (S : ℝ) : Ideal.div (0 + (S : EReal)) ((32768 : ℝ) : EReal) = ((S / 32768 : ℝ) : EReal) := by
  rw [Ideal.div_coe (by norm_num), zero_add, ← EReal.coe_mul]
  congr 1; ring

/-! ## Rows regrouped into tiles, and the mean -/

/-- The 32768 rows are sixteen consecutive tiles of 2048: the double sum over tiles and rows of a tile is the sum over rows. -/
theorem sum_tiles (f : Fin 32768 → ℝ) :
    ∑ t : Fin 16, ∑ r : Fin 2048, f ⟨2048 * t.val + r.val, by have := t.isLt; have := r.isLt; omega⟩ = ∑ q : Fin 32768, f q := by
  rw [← Fintype.sum_prod_type']
  refine Fintype.sum_equiv ((finProdFinEquiv (m := 16) (n := 2048)).trans (finCongr (by norm_num))) _ _ (fun x => ?_)
  refine congrArg f (Fin.ext ?_)
  simp [finProdFinEquiv]
  omega

/-- Halving and dividing distribute over the sum of the rows. -/
theorem mean_identity (s : Fin 32768 → ℝ) :
    ((∑ q, s q) / 32768 + 1) / 2 = (∑ q : Fin 32768, (s q + 1) / 2) / 32768 := by
  rw [← Finset.sum_div, Finset.sum_add_distrib, Finset.sum_const, Finset.card_univ, Fintype.card_fin]
  simp only [nsmul_eq_mul, mul_one]
  push_cast
  ring

/-- The two programs' values over the reals are one. -/
theorem tiles_mean (s : Fin 32768 → ℝ) :
    ((∑ t : Fin 16, ∑ r : Fin 2048, s ⟨2048 * t.val + r.val, by have := t.isLt; have := r.isLt; omega⟩) / 32768 + 1) / 2
      = (∑ q : Fin 32768, (s q + 1) / 2) / 32768 := by
  rw [sum_tiles, mean_identity]

end Cert.MeanAlgebra

end
-- ==== Proof.Bridge.lean ====
/-
  The two programs compute one number.

  With every entry of the argument a real, write d q for the dot product of row q of the first half with row q of the
  second half. The partial-sum array's entries are zero except at (8 t, 0), where it holds tile t's sum, which is the sum
  of d over the tile's 2048 rows; so the kernel program's result is ((sum over tiles and rows of d) / 32768 + 1) / 2.
  The reference's result is (sum over q of (d q + 1) / 2) / 32768. The rows regroup into tiles and the halving and the
  division distribute over the sum.
-/
import proofs.«177278_j53712861004461_2_alg».proof.Proof.KernelSpec
import proofs.«177278_j53712861004461_2_alg».proof.Proof.Gen.ReferenceIdeal.Read
import proofs.«177278_j53712861004461_2_alg».proof.Proof.MeanAlgebra
import Idealize.ShloMosaic.Lib.ValueIdx
import Idealize.ShloMosaic.PureOps.Ideal.Laws

noncomputable section

open scoped BigOperators

namespace Cert.Bridge

open Idealize.ShloMosaic Idealize.ShloMosaic.ValueIdx Cert.MeanAlgebra
open Cert.KernelIdeal.Partial

/-- The argument's indices. -/
abbrev Arg : Type := (⟨2, ![65536, 1024]⟩ : Shape).Idx

/-- Entry (q, k) of the first half of the argument, -/
def lo (q : Fin 32768) (k : Fin 1024) : Arg :=
  ix2 (n0 := 65536) (n1 := 1024) ⟨q.val, by have := q.isLt; omega⟩ k
/-- and of the second half. -/
def hi (q : Fin 32768) (k : Fin 1024) : Arg :=
  ix2 (n0 := 65536) (n1 := 1024) ⟨32768 + q.val, by have := q.isLt; omega⟩ k

/-- Row q's dot product. -/
def rowDot (y : Arg → ℝ) (q : Fin 32768) : ℝ := ∑ k : Fin 1024, y (lo q k) * y (hi q k)

/-- Row r of tile t is row 2048 t + r. -/
abbrev tileRow (t : Fin 16) (r : Fin 2048) : Fin 32768 :=
  ⟨2048 * t.val + r.val, by have := t.isLt; have := r.isLt; omega⟩

/-! ## The kernel program's side -/

/-- A tile's sum of products is the sum of its rows' dot products. -/
theorem tileDot_coe (y : Arg → ℝ) (t : Fin 16) :
    tileDot (fun i => ((y i : ℝ) : EReal)) t = ((∑ r : Fin 2048, rowDot y (tileRow t r) : ℝ) : EReal) := by
  unfold tileDot
  rw [sum_idx2, coe_sum]
  refine Finset.sum_congr rfl fun r _ => ?_
  unfold rowDot
  rw [coe_sum]
  refine Finset.sum_congr rfl fun k _ => ?_
  have ea : rowA t (ix2 r k) = lo (tileRow t r) k := funext fun a => Fin.ext (by
    match a with
    | ⟨0, _⟩ => show t.val * 2048 + r.val = 2048 * t.val + r.val; omega
    | ⟨1, _⟩ => rfl)
  have eb : rowB t (ix2 r k) = hi (tileRow t r) k := funext fun a => Fin.ext (by
    match a with
    | ⟨0, _⟩ => show (t.val + 16) * 2048 + r.val = 32768 + (2048 * t.val + r.val); omega
    | ⟨1, _⟩ => rfl)
  show ((y (rowA t (ix2 r k)) : ℝ) : EReal) * ((y (rowB t (ix2 r k)) : ℝ) : EReal) = _
  rw [ea, eb, EReal.coe_mul]

/-- Tile t's corner in the partial-sum array. -/
def corner (t : Fin 16) : Cert.KernelIdeal.S128x128.Idx :=
  ix2 (n0 := 128) (n1 := 128) ⟨8 * t.val, by have := t.isLt; omega⟩ ⟨0, by norm_num⟩

/-- The partial-sum array sums to the sum of the sixteen tile sums: it is zero off the tiles' corners. -/
theorem sum_G (x : Arg → EReal) : ∑ i : Cert.KernelIdeal.S128x128.Idx, G x i = ∑ t : Fin 16, tileDot x t := by
  symm
  refine Fintype.sum_of_injective corner ?_ _ _ ?_ ?_
  · intro a b h
    have h0 : ((corner a) 0).val = ((corner b) 0).val := by rw [h]
    have h1 : 8 * a.val = 8 * b.val := h0
    exact Fin.ext (by omega)
  · intro i hi
    unfold G
    rw [if_neg]
    rintro ⟨h0, h1⟩
    have hi0 : (i 0).val < 128 := (i 0).isLt
    refine hi ⟨⟨(i 0).val / 8, by omega⟩, funext fun a => Fin.ext ?_⟩
    match a with
    | ⟨0, _⟩ => show 8 * ((i 0).val / 8) = (i 0).val; omega
    | ⟨1, _⟩ => show 0 = (i 1).val; omega
  · intro t
    unfold G
    have ht : t.val < 16 := t.isLt
    rw [if_pos ⟨show (8 * t.val) % 8 = 0 by omega, rfl⟩]
    exact congrArg (tileDot x) (Fin.ext (show t.val = 8 * t.val / 8 by omega))

/-- The host's sum of the partial-sum array from the zero word. -/
theorem reduce_total (P : Cert.KernelIdeal.S128x128.Idx → EReal) (j : Cert.KernelIdeal.S_.Idx) :
    Host.reduceAdd (F := Ideal) P (constant (F := Ideal) Cert.KernelIdeal.S_ .f32 0x00000000#32)
        Cert.KernelIdeal.Gen.reducesTo_S128x128_S_d0_1 Cert.KernelIdeal.Gen.h_S_ j = 0 + ∑ i, P i := by
  simp only [Host.reduceAdd, Ideal.hostReduceAdd_def]
  rw [Ideal.hostReduceAdd_total Cert.KernelIdeal.Gen.reducesTo_S128x128_S_d0_1 (fun b => b.elim0) P _ j]
  exact congrArg (· + _) Ideal.ofBits_zero_f32

/-- The kernel program's result, the argument's entries reals. -/
theorem kernel_value (y : Arg → ℝ) (j : Cert.KernelIdeal.S_.Idx) :
    epilogue (G (fun i => ((y i : ℝ) : EReal))) j
      = ((((∑ t : Fin 16, ∑ r : Fin 2048, rowDot y (tileRow t r)) / 32768 + 1) / 2 : ℝ) : EReal) := by
  show Ideal.div (Ideal.div (Host.reduceAdd (F := Ideal) (G (fun i => ((y i : ℝ) : EReal))) (constant (F := Ideal) Cert.KernelIdeal.S_ .f32 0x00000000#32)
        Cert.KernelIdeal.Gen.reducesTo_S128x128_S_d0_1 Cert.KernelIdeal.Gen.h_S_ j) (Ideal.ofBits .f32 0x47000000#32)
      + Ideal.ofBits .f32 0x3F800000#32) (Ideal.ofBits .f32 0x40000000#32) = _
  rw [reduce_total, sum_G, ofBits_32768, ofBits_one, ofBits_two,
    show (∑ t : Fin 16, tileDot (fun i => ((y i : ℝ) : EReal)) t) = ((∑ t : Fin 16, ∑ r : Fin 2048, rowDot y (tileRow t r) : ℝ) : EReal) from by
      rw [coe_sum]; exact Finset.sum_congr rfl fun t _ => tileDot_coe y t]
  exact tile_epilogue _

/-! ## The reference's side -/

open Cert.ReferenceIdeal Cert.ReferenceIdeal.Read

/-- One row of the reference: the dot product plus one, halved. -/
theorem ref_row (y : Arg → ℝ) (q : Cert.ReferenceIdeal.S32768.Idx) :
    val_main_v7 (F := Ideal) (fun i => ((y i : ℝ) : EReal)) q = (((rowDot y ⟨(q 0).val, (q 0).isLt⟩ + 1) / 2 : ℝ) : EReal) := by
  have hsum : (∑ k : Fin 1024, val_main_v2 (F := Ideal) (fun i => ((y i : ℝ) : EReal)) (idx_main_v3 q k))
      = ((rowDot y ⟨(q 0).val, (q 0).isLt⟩ : ℝ) : EReal) := by
    unfold rowDot
    rw [coe_sum]
    refine Finset.sum_congr rfl fun k _ => ?_
    rw [val_main_v2_apply, val_main_v0_apply, val_main_v1_apply]
    have ea : idx_main_v0 (idx_main_v3 q k) = lo ⟨(q 0).val, (q 0).isLt⟩ k := funext fun a => Fin.ext (by
      match a with
      | ⟨0, _⟩ => rfl
      | ⟨1, _⟩ => rfl)
    have eb : idx_main_v1 (idx_main_v3 q k) = hi ⟨(q 0).val, (q 0).isLt⟩ k := funext fun a => Fin.ext (by
      match a with
      | ⟨0, _⟩ => rfl
      | ⟨1, _⟩ => rfl)
    rw [ea, eb, EReal.coe_mul]
    rfl
  rw [val_main_v7_apply, val_main_v5_apply, val_main_v3_apply, val_main_v4_apply, val_main_v6_apply, val_main_cst_0_apply,
    val_main_cst_1_apply, val_main_cst_apply, hsum]
  simp only [Ideal.hostDivf_def, Ideal.addf_def, Ideal.ofBits_def, Ideal.ofBits_zero_f32, ofBits_one, ofBits_two]
  exact row_step _

/-- A vector's indices are its one coordinate. -/
def vecEquiv : Cert.ReferenceIdeal.S32768.Idx ≃ Fin 32768 where
  toFun i := i 0
  invFun q := ix1 q
  left_inv i := (eq_ix1 i).symm
  right_inv _ := rfl

/-- The reference's result, the argument's entries reals. -/
theorem ref_value (y : Arg → ℝ) (j : Cert.ReferenceIdeal.S_.Idx) :
    val_main_v9 (F := Ideal) (fun i => ((y i : ℝ) : EReal)) j
      = (((∑ q : Fin 32768, (rowDot y q + 1) / 2) / 32768 : ℝ) : EReal) := by
  have hsum : (∑ q : Cert.ReferenceIdeal.S32768.Idx, val_main_v7 (F := Ideal) (fun i => ((y i : ℝ) : EReal)) q)
      = ((∑ q : Fin 32768, (rowDot y q + 1) / 2 : ℝ) : EReal) := by
    rw [coe_sum]
    exact Fintype.sum_equiv vecEquiv _ _ (fun q => ref_row y q)
  rw [val_main_v9_apply, val_main_v8_apply, val_main_cst_3_apply, val_main_cst_2_apply, hsum]
  simp only [Ideal.hostDivf_def, Ideal.ofBits_def, Ideal.ofBits_zero_f32, ofBits_32768]
  exact mean_step _

/-! ## The bridge -/

/-- On an argument whose entries are all reals the reference's result is the kernel program's. -/
theorem result_eq (x : Arg → EReal) (hx : ∀ i, ∃ r : ℝ, x i = (r : EReal)) :
    val_main_v9 (F := Ideal) x = epilogue (G x) := by
  choose y hy using hx
  obtain rfl : x = fun i => ((y i : ℝ) : EReal) := funext hy
  funext j
  rw [ref_value, kernel_value]
  exact congrArg _ (tiles_mean (rowDot y)).symm

end Cert.Bridge

end
-- ==== Proof.Finite.lean ====
/-
  Finiteness of the argument, read out of the precondition: the precondition is one conjunction over all entries of
  "the absolute value is below plus infinity", so every entry of the argument array is a real number.
-/
import proofs.«177278_j53712861004461_2_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.Finite

open Idealize.ShloMosaic

instance : Subsingleton Cert.Pre_finite_inputs.S_.Idx := ⟨fun a b => funext fun d => d.elim0⟩

/-- The word 0x7F800000 denotes plus infinity. -/
theorem inf_word : Ideal.ofBits .f32 0x7F800000#32 = ⊤ := by simp [Ideal.ofBits, Ideal.ieee]

/-- An extended real whose absolute value is below plus infinity is a real. -/
theorem real_of_abs_lt_top (x : EReal) (h : max x (-x) < ⊤) : ∃ r : ℝ, x = (r : EReal) := by
  induction x using EReal.rec with
  | bot => simp at h
  | coe r => exact ⟨r, rfl⟩
  | top => simp at h

/-- Under the precondition every entry of the argument is a real. -/
theorem entries_real [hP : Cert.Pre_finite_inputs.Facts] (x : FVec Ideal Cert.Pre_finite_inputs.S65536x1024 .f32)
    (h : Cert.Pre_finite_inputs.fn (F := Ideal) x = fun _ => 1#1) (i : Cert.Pre_finite_inputs.S65536x1024.Idx) :
    ∃ r : ℝ, x i = (r : EReal) := by
  have h0 := congrFun h ValueIdx.ix0
  dsimp only [Cert.Pre_finite_inputs.fn] at h0
  have hi := Host.reduce_andi_all _ _ _ _ _ h0 i
  have hb : broadcastInDim Cert.Pre_finite_inputs.S65536x1024 ![] Cert.Pre_finite_inputs.Facts.bcast_S_S65536x1024
      (constant (F := Ideal) Cert.Pre_finite_inputs.S_ .f32 0x7F800000#32) i = ⊤ := by
    rw [broadcastInDim_apply _ _ _ i ValueIdx.ix0 (fun a => a.elim0)]
    exact inf_word
  have hc : Ideal.cmp .olt (max (x i) (-(x i))) ⊤ = 1#1 := by
    rw [← hb]; exact hi
  refine real_of_abs_lt_top (x i) ?_
  unfold Ideal.cmp at hc
  by_contra hlt
  simp [hlt] at hc

end Cert.Finite

end
-- ==== Proof.lean ====
/-
  The kernel program and its reference compute the same loss, mean over the 32768 row pairs of (d + 1) / 2 with d the
  dot product of a row of the first half of the argument with the matching row of the second half.

  The kernel program sums the products tile by tile on a grid of sixteen points, each point leaving its tile's sum at
  the corner of its own block of a 128 x 128 array of zeros; it then sums that array, divides by 32768, adds one and
  halves. The reference halves d + 1 row by row, sums, and divides by 32768. On the extended reals these agree when every
  entry of the argument is a real, which the precondition says: both are (sum of d) / 65536 + 1 / 2.

  The frames: the kernel program's two input windows read one array, whose full share is dealt to them as its two halves;
  the body's one store covers the output block; the four host lines after the region read the output array alone. The
  reference is a straight line of host operations. The idealization rewrote nothing, so it is preserved trivially.
-/
import proofs.«177278_j53712861004461_2_alg».proof.Defs
import proofs.«177278_j53712861004461_2_alg».proof.Proof.Gen.Kernel
import proofs.«177278_j53712861004461_2_alg».proof.Proof.Gen.KernelIdeal
import proofs.«177278_j53712861004461_2_alg».proof.Proof.Gen.ReferenceIdeal
import proofs.«177278_j53712861004461_2_alg».proof.Proof.Gen.Pre_finite_inputs
import proofs.«177278_j53712861004461_2_alg».proof.Proof.Gen.ReferenceIdeal.Read
import proofs.«177278_j53712861004461_2_alg».proof.Proof.KernelFrame
import proofs.«177278_j53712861004461_2_alg».proof.Proof.KernelIdealFrame
import proofs.«177278_j53712861004461_2_alg».proof.Proof.KernelValue
import proofs.«177278_j53712861004461_2_alg».proof.Proof.Bridge
import proofs.«177278_j53712861004461_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel program runs and leaves its argument unchanged. -/
theorem frame_k : Cert.frame_Kernel (hKernel := Cert.Kernel.Gen.facts) (hPre_finite_inputs := Cert.Pre_finite_inputs.Gen.facts) :=
  fun m ρ _ => Cert.Kernel.Frame.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Frame.frame m ρ

/-- The reference is a straight line of host operations: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the argument, whose entries the precondition makes reals, both programs end at the epilogue
    of the partial-sum array: the kernel program by its run, the reference because its composed term is that function. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Partial.epilogue (Cert.KernelIdeal.Partial.G
      (m ((c.tc : Thread Cert.KernelIdeal.nD Cert.KernelIdeal.τ).loc Cert.KernelIdeal.main_arg0))),
    Cert.KernelIdeal.Partial.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, hagree c]
  exact Cert.Bridge.result_eq _ (fun i => Cert.Finite.entries_real _ (hpre c) i)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
